-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x400x1x1x64x64 : Shape := ⟨6, ![32, 400, 1, 1, 64, 64]⟩
abbrev S_ : Shape := ⟨0, ![]⟩

class Facts : Prop where
  bcast_S_S32x400x1x1x64x64 : S_.BroadcastsInDim S32x400x1x1x64x64 (![] : Fin 0 → Fin S32x400x1x1x64x64.rank)
  reducesTo_S32x400x1x1x64x64_S_d0_1_2_3_4_5 : S32x400x1x1x64x64.ReducesTo [0, 1, 2, 3, 4, 5] S_
  h_S_ : 0 < S_.numel

variable [Facts]

def fn {F : FTy → Type} [FloatOps F] (main_arg0 : FVec F S32x400x1x1x64x64 .f32) : IVec S_ 1 :=
  let main_v0 : FVec F S32x400x1x1x64x64 .f32 := Host.absf main_arg0
  let main_cst : FVec F S_ .f32 := constant S_ .f32 0x7F800000#32
  let main_v1 : FVec F S32x400x1x1x64x64 .f32 := broadcastInDim S32x400x1x1x64x64 ![] bcast_S_S32x400x1x1x64x64 main_cst
  let main_v2 : IVec S32x400x1x1x64x64 1 := cmpf .olt main_v0 main_v1
  let main_c : IVec S_ 1 := constantI S_ 1 1#1
  let main_v3 : IVec S_ 1 := (fun x v => Host.reduce IntOp.andi x v reducesTo_S32x400x1x1x64x64_S_d0_1_2_3_4_5 h_S_) main_v2 main_c
  main_v3
-- ==== Kernel.lean ====
abbrev S32x400x1x1x64x64 : Shape := ⟨6, ![32, 400, 1, 1, 64, 64]⟩
abbrev S32x5x5x256x256 : Shape := ⟨5, ![32, 5, 5, 256, 256]⟩
abbrev S1x80x1x1x64x64 : Shape := ⟨6, ![1, 80, 1, 1, 64, 64]⟩
abbrev S1x1x5x256x256 : Shape := ⟨5, ![1, 1, 5, 256, 256]⟩
abbrev S80x64x64 : Shape := ⟨3, ![80, 64, 64]⟩
abbrev S5x4x4x64x64 : Shape := ⟨5, ![5, 4, 4, 64, 64]⟩
abbrev S5x64x4x64x4 : Shape := ⟨5, ![5, 64, 4, 64, 4]⟩
abbrev S5x256x64x4 : Shape := ⟨4, ![5, 256, 64, 4]⟩
abbrev S5x256x256 : Shape := ⟨3, ![5, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S32x400x1x1x64x64, .f32⟩
  | .hbm, ⟨1, _⟩ => ⟨S32x5x5x256x256, .f32⟩
  | .local _ .vmem, ⟨0, _⟩ => ⟨S1x80x1x1x64x64, .f32⟩
  | .local _ .vmem, ⟨1, _⟩ => ⟨S1x80x1x1x64x64, .f32⟩
  | .local _ .vmem, ⟨2, _⟩ => ⟨S1x1x5x256x256, .f32⟩
  | .local _ .vmem, ⟨3, _⟩ => ⟨S1x1x5x256x256, .f32⟩
  | _, _ => ⟨S32x400x1x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 5], ![false, false]⟩

def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x80x1x1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x80x1x1x64x64_S1x80x1x1x64x64_0_0_0_0_0_0 : ∀ a, (![0, 0, 0, 0, 0, 0] : Fin 6 → Nat) a + S1x80x1x1x64x64.size a ≤ S1x80x1x1x64x64.size a
  h_S1x80x1x1x64x64 : 0 < S1x80x1x1x64x64.numel
  shapeCasts_S1x80x1x1x64x64_S80x64x64 : S1x80x1x1x64x64.ShapeCasts S80x64x64
  shapeCasts_S80x64x64_S5x4x4x64x64 : S80x64x64.ShapeCasts S5x4x4x64x64
  transposes_S5x4x4x64x64_p0_3_1_4_2_S5x64x4x64x4 : S5x4x4x64x64.Transposes [0, 3, 1, 4, 2] S5x64x4x64x4
  shapeCasts_S5x64x4x64x4_S5x256x64x4 : S5x64x4x64x4.ShapeCasts S5x256x64x4
  shapeCasts_S5x256x64x4_S5x256x256 : S5x256x64x4.ShapeCasts S5x256x256
  inb_S1x1x5x256x256_S1x1x5x256x256_0_0_0_0_0 : ∀ a, (![0, 0, 0, 0, 0] : Fin 5 → Nat) a + S1x1x5x256x256.size a ≤ S1x1x5x256x256.size a
  h_S1x1x5x256x256 : 0 < S1x1x5x256x256.numel
  shapeCasts_S1x1x5x256x256_S5x256x256 : S1x1x5x256x256.ShapeCasts S5x256x256
  shapeCasts_S5x256x256_S1x1x5x256x256 : S5x256x256.ShapeCasts S1x1x5x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80x1x1x64x64.size a ≤ S32x400x1x1x64x64.size a
  hwx0_0 : ∀ i : grid0.Coords, EltTy.bits .f32 = 32 ∨ (Rect.block (s := S32x400x1x1x64x64) S1x80x1x1x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x5x256x256.size a ≤ S32x5x5x256x256.size a
  hwx0_1 : ∀ i : grid0.Coords, EltTy.bits .f32 = 32 ∨ (Rect.block (s := S32x5x5x256x256) S1x1x5x256x256.size (cc0_transform_1 i) (hinb0_1 i)).WholeWords (EltTy.packing .f32)

variable [Facts₀]

abbrev win0_0 : Pipeline.Window sig grid0 :=
  Pipeline.Window.ofSpec (Memref.whole main_arg0) S1x80x1x1x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x5x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x400x1x1x64x64 : Shape := ⟨6, ![32, 400, 1, 1, 64, 64]⟩
abbrev S32x400x64x64 : Shape := ⟨4, ![32, 400, 64, 64]⟩
abbrev S32x25x4x4x64x64 : Shape := ⟨6, ![32, 25, 4, 4, 64, 64]⟩
abbrev S32x25x64x4x64x4 : Shape := ⟨6, ![32, 25, 64, 4, 64, 4]⟩
abbrev S32x25x256x256 : Shape := ⟨4, ![32, 25, 256, 256]⟩
abbrev S32x5x5x256x256 : Shape := ⟨5, ![32, 5, 5, 256, 256]⟩

abbrev nBuf : Space → Nat
  | .hbm => 6
  | .vmem => 0
  | .smem => 0
  | _ => 0

abbrev bufTy : (tb : Table) → Fin (tcTables nBuf tb) → BufTy
  | .hbm, ⟨0, _⟩ => ⟨S32x400x1x1x64x64, .f32⟩
  | .hbm, ⟨1, _⟩ => ⟨S32x400x64x64, .f32⟩
  | .hbm, ⟨2, _⟩ => ⟨S32x25x4x4x64x64, .f32⟩
  | .hbm, ⟨3, _⟩ => ⟨S32x25x64x4x64x4, .f32⟩
  | .hbm, ⟨4, _⟩ => ⟨S32x25x256x256, .f32⟩
  | .hbm, ⟨5, _⟩ => ⟨S32x5x5x256x256, .f32⟩
  | _, _ => ⟨S32x400x1x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]

class Facts₀ : Prop where
  shapeCasts_S32x400x1x1x64x64_S32x400x64x64 : S32x400x1x1x64x64.ShapeCasts S32x400x64x64
  shapeCasts_S32x400x64x64_S32x25x4x4x64x64 : S32x400x64x64.ShapeCasts S32x25x4x4x64x64
  transposes_S32x25x4x4x64x64_S32x25x64x4x64x4_0_1_4_2_5_3 : S32x25x4x4x64x64.Transposes [0, 1, 4, 2, 5, 3] S32x25x64x4x64x4
  shapeCasts_S32x25x64x4x64x4_S32x25x256x256 : S32x25x64x4x64x4.ShapeCasts S32x25x256x256
  shapeCasts_S32x25x256x256_S32x5x5x256x256 : S32x25x256x256.ShapeCasts S32x5x5x256x256

variable [Facts₀]

class Facts : Prop extends Facts₀ where

variable [Facts]
-- ==== Proof.Shuffle.lean ====
/-
  The pixel shuffle (depth to space, factor 4) followed by the split of 25 channels into 5 × 5, as ONE function of the
  input array, index by index.

  The input is x[b, ch, 0, 0, h, w] with 32 × 400 × 1 × 1 × 64 × 64 entries; the output is o[b, a, c, y, z] with
  32 × 5 × 5 × 256 × 256 entries. An output pixel (y, z) of the upsampled 256 × 256 grid lies in the 4 × 4 cell of the
  input pixel (y / 4, z / 4), at the position (y % 4, z % 4) inside the cell, and the sixteen positions of a cell are
  sixteen consecutive input channels: output channel q = 5·a + c takes its position (i, j) from input channel
  16·q + 4·i + j. So

      o[b, a, c, y, z] = x[b, 80·a + 16·c + 4·(y % 4) + (z % 4), 0, 0, y / 4, z / 4].

  Nothing is computed: every output entry IS one input entry. Both programs are proved to be this function.
-/
import Idealize.ShloMosaic.Lib.ValueIdx
import Idealize.ShloMosaic.Lib.ValueIdxRank6

namespace Cert.Shuffle

open Idealize.ShloMosaic Idealize.ShloMosaic.ValueIdx

/-- The input pixel whose 4 × 4 cell holds the coordinate `y` of the upsampled grid. -/
abbrev pix (y : Fin 256) : Fin 64 := ⟨y.val / 4, by have := y.isLt; omega⟩

/-- The position of `y` inside that cell. -/
abbrev sub (y : Fin 256) : Fin 4 := ⟨y.val % 4, by omega⟩

/-- Among the 80 input channels of one group of five output channels: channel `c` of the group, cell position
    `(y % 4, z % 4)`. -/
abbrev chan80 (c : Fin 5) (y z : Fin 256) : Fin 80 :=
  ⟨c.val * 16 + (y.val % 4) * 4 + z.val % 4, by have := c.isLt; omega⟩

/-- Among all 400 input channels: group `a`, then as `chan80`. -/
abbrev chan400 (a c : Fin 5) (y z : Fin 256) : Fin 400 :=
  ⟨a.val * 80 + c.val * 16 + (y.val % 4) * 4 + z.val % 4, by have := a.isLt; have := c.isLt; omega⟩

/-- The input entry that the output entry `[b, a, c, y, z]` is. -/
abbrev srcOf (b : Fin 32) (a c : Fin 5) (y z : Fin 256) : (⟨6, ![32, 400, 1, 1, 64, 64]⟩ : Shape).Idx :=
  ix6 b (chan400 a c y z) 0 0 (pix y) (pix z)

/-- The shuffled array: each output entry read from its input entry. -/
def shuffle {α : Type} (x : (⟨6, ![32, 400, 1, 1, 64, 64]⟩ : Shape).Idx → α) :
    (⟨5, ![32, 5, 5, 256, 256]⟩ : Shape).Idx → α :=
  fun i => x (srcOf (i 0) (i 1) (i 2) (i 3) (i 4))

theorem shuffle_apply {α : Type} (x : (⟨6, ![32, 400, 1, 1, 64, 64]⟩ : Shape).Idx → α)
    (b : Fin 32) (a c : Fin 5) (y z : Fin 256) :
    shuffle x (ix5 b a c y z) = x (srcOf b a c y z) := rfl

end Cert.Shuffle
-- ==== Proof.BlockLayout.lean ====
/-
  One block of the kernel, re-laid: the body loads a block x[0, ch, 0, 0, h, w] of 80 channels (one group of five output
  channels) and stores the block o[0, 0, c, y, z] after six re-layings, none of which changes a value —

      [1,80,1,1,64,64] → [80,64,64]          the three unit axes dropped
      [80,64,64]       → [5,4,4,64,64]       channel ch = 16·c + 4·i + j split into (c, i, j)
      [5,4,4,64,64]    → [5,64,4,64,4]       transposed: (c, i, j, h, w) ↦ (c, h, i, w, j)
      [5,64,4,64,4]    → [5,256,64,4]        rows merged: y = 4·h + i
      [5,256,64,4]     → [5,256,256]         columns merged: z = 4·w + j
      [5,256,256]      → [1,1,5,256,256]     two unit axes added.

  A reshape keeps the row-major position and a transpose permutes the coordinates, so each step read at an index is
  the step before it at an index named here; composed, the stored block at [0, 0, c, y, z] is the loaded block at
  [0, 16·c + 4·(y % 4) + (z % 4), 0, 0, y / 4, z / 4].
-/
import Idealize.ShloMosaic.Lib.Pipeline.Value
import proofs.«127118_j90563680403822_2_alg».proof.Proof.Shuffle

namespace Cert.Shuffle

open Idealize.ShloMosaic Idealize.ShloMosaic.ValueIdx

variable {α : Type}

/-- Dropping the unit axes of a block: `[80,64,64]` at `(ch, h, w)` is `[1,80,1,1,64,64]` at `(0, ch, 0, 0, h, w)`. -/
theorem drop_units_apply (x : (⟨6, ![1, 80, 1, 1, 64, 64]⟩ : Shape).Idx → α)
    (hc : (⟨6, ![1, 80, 1, 1, 64, 64]⟩ : Shape).ShapeCasts ⟨3, ![80, 64, 64]⟩)
    (ch : Fin 80) (h w : Fin 64) :
    shapeCast ⟨3, ![80, 64, 64]⟩ x hc (ix3 ch h w) = x (ix6 0 ch 0 0 h w) :=
  shapeCast_apply x hc (ix3 ch h w) (ix6 0 ch 0 0 h w) (by
    rw [Shape.rowMajor_val_six, Shape.rowMajor_val_three]
    show (((((0 : Fin 1).val * 80 + ch.val) * 1 + (0 : Fin 1).val) * 1 + (0 : Fin 1).val) * 64 + h.val) * 64 + w.val
      = (ch.val * 64 + h.val) * 64 + w.val
    simp)

/-- Splitting the channel axis: `[5,4,4,64,64]` at `(c, i, j, h, w)` is `[80,64,64]` at `(16·c + 4·i + j, h, w)`. -/
theorem split_channel_apply (x : (⟨3, ![80, 64, 64]⟩ : Shape).Idx → α)
    (hc : (⟨3, ![80, 64, 64]⟩ : Shape).ShapeCasts ⟨5, ![5, 4, 4, 64, 64]⟩)
    (c : Fin 5) (i j : Fin 4) (h w : Fin 64) :
    shapeCast ⟨5, ![5, 4, 4, 64, 64]⟩ x hc (ix5 c i j h w)
      = x (ix3 ⟨c.val * 16 + i.val * 4 + j.val, by have := c.isLt; have := i.isLt; have := j.isLt; omega⟩ h w) :=
  shapeCast_apply x hc (ix5 c i j h w) _ (by
    rw [Shape.rowMajor_val_three, Shape.rowMajor_val_five]
    show ((c.val * 16 + i.val * 4 + j.val) * 64 + h.val) * 64 + w.val
      = ((((c.val * 4 + i.val) * 4 + j.val) * 64 + h.val) * 64 + w.val)
    omega)

/-- The transpose `(c, i, j, h, w) ↦ (c, h, i, w, j)`. -/
theorem interleave_apply (x : (⟨5, ![5, 4, 4, 64, 64]⟩ : Shape).Idx → α)
    (ht : (⟨5, ![5, 4, 4, 64, 64]⟩ : Shape).Transposes [0, 3, 1, 4, 2] ⟨5, ![5, 64, 4, 64, 4]⟩)
    (c : Fin 5) (h : Fin 64) (i : Fin 4) (w : Fin 64) (j : Fin 4) :
    transpose ⟨5, ![5, 64, 4, 64, 4]⟩ [0, 3, 1, 4, 2] x ht (ix5 c h i w j) = x (ix5 c i j h w) :=
  transpose_apply [0, 3, 1, 4, 2] x ht (ix5 c h i w j) (ix5 c i j h w) (fun b => match b with
    | ⟨0, _⟩ => rfl
    | ⟨1, _⟩ => rfl
    | ⟨2, _⟩ => rfl
    | ⟨3, _⟩ => rfl
    | ⟨4, _⟩ => rfl)

/-- Merging the rows: `[5,256,64,4]` at `(c, y, w, j)` is `[5,64,4,64,4]` at `(c, y / 4, y % 4, w, j)`. -/
theorem merge_rows_apply (x : (⟨5, ![5, 64, 4, 64, 4]⟩ : Shape).Idx → α)
    (hc : (⟨5, ![5, 64, 4, 64, 4]⟩ : Shape).ShapeCasts ⟨4, ![5, 256, 64, 4]⟩)
    (c : Fin 5) (y : Fin 256) (w : Fin 64) (j : Fin 4) :
    shapeCast ⟨4, ![5, 256, 64, 4]⟩ x hc (ix4 c y w j) = x (ix5 c (pix y) (sub y) w j) :=
  shapeCast_apply x hc (ix4 c y w j) (ix5 c (pix y) (sub y) w j) (by
    rw [Shape.rowMajor_val_five, Shape.rowMajor_val_four]
    show (((c.val * 64 + y.val / 4) * 4 + y.val % 4) * 64 + w.val) * 4 + j.val
      = ((c.val * 256 + y.val) * 64 + w.val) * 4 + j.val
    omega)

/-- Merging the columns: `[5,256,256]` at `(c, y, z)` is `[5,256,64,4]` at `(c, y, z / 4, z % 4)`. -/
theorem merge_cols_apply (x : (⟨4, ![5, 256, 64, 4]⟩ : Shape).Idx → α)
    (hc : (⟨4, ![5, 256, 64, 4]⟩ : Shape).ShapeCasts ⟨3, ![5, 256, 256]⟩)
    (c : Fin 5) (y z : Fin 256) :
    shapeCast ⟨3, ![5, 256, 256]⟩ x hc (ix3 c y z) = x (ix4 c y (pix z) (sub z)) :=
  shapeCast_apply x hc (ix3 c y z) (ix4 c y (pix z) (sub z)) (by
    rw [Shape.rowMajor_val_four, Shape.rowMajor_val_three]
    show ((c.val * 256 + y.val) * 64 + z.val / 4) * 4 + z.val % 4 = (c.val * 256 + y.val) * 256 + z.val
    omega)

/-- Adding the two unit axes of the output block. -/
theorem add_units_apply (x : (⟨3, ![5, 256, 256]⟩ : Shape).Idx → α)
    (hc : (⟨3, ![5, 256, 256]⟩ : Shape).ShapeCasts ⟨5, ![1, 1, 5, 256, 256]⟩)
    (u u' : Fin 1) (c : Fin 5) (y z : Fin 256) :
    shapeCast ⟨5, ![1, 1, 5, 256, 256]⟩ x hc (ix5 u u' c y z) = x (ix3 c y z) :=
  shapeCast_apply x hc (ix5 u u' c y z) (ix3 c y z) (by
    rw [Shape.rowMajor_val_three, Shape.rowMajor_val_five]
    show (c.val * 256 + y.val) * 256 + z.val = (((u.val * 1 + u'.val) * 5 + c.val) * 256 + y.val) * 256 + z.val
    have := u.isLt; have := u'.isLt; omega)

/-- THE BLOCK, RE-LAID: the six steps composed. The stored block at `[u, u', c, y, z]` is the loaded block at
    channel `16·c + 4·(y % 4) + (z % 4)`, pixel `(y / 4, z / 4)`. -/
theorem block_relaid_apply (x : (⟨6, ![1, 80, 1, 1, 64, 64]⟩ : Shape).Idx → α)
    (h1 : (⟨6, ![1, 80, 1, 1, 64, 64]⟩ : Shape).ShapeCasts ⟨3, ![80, 64, 64]⟩)
    (h2 : (⟨3, ![80, 64, 64]⟩ : Shape).ShapeCasts ⟨5, ![5, 4, 4, 64, 64]⟩)
    (h3 : (⟨5, ![5, 4, 4, 64, 64]⟩ : Shape).Transposes [0, 3, 1, 4, 2] ⟨5, ![5, 64, 4, 64, 4]⟩)
    (h4 : (⟨5, ![5, 64, 4, 64, 4]⟩ : Shape).ShapeCasts ⟨4, ![5, 256, 64, 4]⟩)
    (h5 : (⟨4, ![5, 256, 64, 4]⟩ : Shape).ShapeCasts ⟨3, ![5, 256, 256]⟩)
    (h6 : (⟨3, ![5, 256, 256]⟩ : Shape).ShapeCasts ⟨5, ![1, 1, 5, 256, 256]⟩)
    (u u' : Fin 1) (c : Fin 5) (y z : Fin 256) :
    shapeCast ⟨5, ![1, 1, 5, 256, 256]⟩
        (shapeCast ⟨3, ![5, 256, 256]⟩
          (shapeCast ⟨4, ![5, 256, 64, 4]⟩
            (transpose ⟨5, ![5, 64, 4, 64, 4]⟩ [0, 3, 1, 4, 2]
              (shapeCast ⟨5, ![5, 4, 4, 64, 64]⟩ (shapeCast ⟨3, ![80, 64, 64]⟩ x h1) h2) h3) h4) h5) h6
        (ix5 u u' c y z)
      = x (ix6 0 (chan80 c y z) 0 0 (pix y) (pix z)) := by
  rw [add_units_apply, merge_cols_apply, merge_rows_apply, interleave_apply, split_channel_apply, drop_units_apply]

end Cert.Shuffle
-- ==== Proof.KernelBlock.lean ====
/-
  What one grid point of the kernel writes back. The grid is 32 × 5: point (b, a) loads the block
  x[b, 80·a … 80·a + 79, 0, 0, :, :] of the argument and stores the block o[b, a, :, :, :] of the result. The body's one
  store is the loaded block re-laid (`Cert.Shuffle.block_relaid_apply`): at [0, 0, c, y, z] it holds the loaded block at
  channel 16·c + 4·(y % 4) + (z % 4), pixel (y / 4, z / 4). A block's entry sits in its array, on each axis, at the block
  index times the block's extent plus the coordinate inside the block; so that entry is the argument at
  [b, 80·a + 16·c + 4·(y % 4) + (z % 4), 0, 0, y / 4, z / 4], which is the shuffle of the argument read at the
  place [b, a, c, y, z] where the stored entry lands: the block written back IS the shuffle read through the block.
-/
import proofs.«127118_j90563680403822_2_alg».proof.Proof.Gen.KernelIdeal.Value
import proofs.«127118_j90563680403822_2_alg».proof.Proof.BlockLayout

noncomputable section

namespace Cert.KernelIdeal.Shuffled

open Cert.KernelIdeal Cert.KernelIdeal.Gen Idealize.ShloMosaic Idealize.ShloMosaic.TcCoe Idealize.SL.Sem
open Idealize.ShloMosaic.ValueIdx Cert.Shuffle
open Idealize.ShloMosaic.Pipeline (Dat)

variable {F : FTy → Type} [FloatOps F]
variable (m : (ℓ : Loc nD τ sig) → Buf (Elt F) ℓ) (ρ : Dev nD → PrngReg)

/-- The body's stored value at an index is the loaded block at the re-laid index. -/
theorem stored_apply (v0 : Vec F S1x80x1x1x64x64 .f32) (u u' : Fin 1) (c : Fin 5) (y z : Fin 256) :
    k0_pay1 v0 (ix5 u u' c y z) = v0 (ix6 0 (chan80 c y z) 0 0 (pix y) (pix z)) :=
  block_relaid_apply (α := Elt F .f32) v0 _ _ _ _ _ _ u u' c y z

theorem zeros5 : (![0, 0, 0, 0, 0] : Fin 5 → Nat) = fun _ => 0 := funext fun a => by fin_cases a <;> rfl
theorem zeros6 : (![0, 0, 0, 0, 0, 0] : Fin 6 → Nat) = fun _ => 0 := funext fun a => by fin_cases a <;> rfl

/-- The two index maps over the grid: at every point the input block and the output block have the same batch index
    and the same group index, both in range, and every other block index is zero. -/
theorem index_facts : ∀ t : Fin cfg0.N,
    win0_0.index t (0 : Fin 6) = win0_1.index t (0 : Fin 5)
    ∧ win0_0.index t (1 : Fin 6) = win0_1.index t (1 : Fin 5)
    ∧ win0_0.index t (2 : Fin 6) = 0 ∧ win0_0.index t (3 : Fin 6) = 0
    ∧ win0_0.index t (4 : Fin 6) = 0 ∧ win0_0.index t (5 : Fin 6) = 0
    ∧ win0_1.index t (2 : Fin 5) = 0 ∧ win0_1.index t (3 : Fin 5) = 0 ∧ win0_1.index t (4 : Fin 5) = 0
    ∧ win0_1.index t (0 : Fin 5) < 32 ∧ win0_1.index t (1 : Fin 5) < 5 :=
  (by decide +kernel : ∀ t : Fin grid0.N, _)

/-- WHAT POINT `t` WRITES BACK is block `t` of the shuffle of the argument array. -/
theorem flushed_eq (c : Dev nD) (t : Fin cfg0.N) :
    (dats m 0 c).flushed 1 t
      = ((cfg0.win 1).blk t).view.read (Elt F) (shuffle (α := Elt F .f32) (V m c main_arg0)) := by
  rw [Cert.KernelIdeal.Value.flushed1]
  unfold out0_1
  rw [View.canon_unit_zero zeros5]
  simp only [View.ld_unit_zero (S := S1x80x1x1x64x64) zeros6]
  obtain ⟨e0, e1, e2, e3, e4, e5, f2, f3, f4, l0, l1⟩ := index_facts t
  funext j
  obtain ⟨u, u', cc, y, z, rfl⟩ : ∃ (u u' : Fin 1) (cc : Fin 5) (y z : Fin 256), j = ix5 u u' cc y z :=
    ⟨j 0, j 1, j 2, j 3, j 4, eq_ix5 j⟩
  show k0_pay1 (iblk m c 0 t) (ix5 u u' cc y z)
    = shuffle (α := Elt F .f32) (V m c main_arg0) (((cfg0.win 1).blk t).view.emb (ix5 u u' cc y z))
  refine (stored_apply (iblk m c 0 t) u u' cc y z).trans ?_
  show V m c main_arg0 (((cfg0.win 0).blk t).view.emb (ix6 0 (chan80 cc y z) 0 0 (pix y) (pix z))) = _
  unfold shuffle
  refine congrArg (V m c main_arg0) (funext fun a => Fin.ext ?_)
  have hu : u.val = 0 := by have := u.isLt; omega
  have hu' : u'.val = 0 := by have := u'.isLt; omega
  have hc : cc.val < 5 := cc.isLt
  have hy : y.val < 256 := y.isLt
  have hz : z.val < 256 := z.isLt
  match a with
  | ⟨0, _⟩ =>
    show win0_0.index t (0 : Fin 6) * 1 + 1 * (0 : Fin 1).val = win0_1.index t (0 : Fin 5) * 1 + 1 * u.val
    simp only [Fin.val_zero]; omega
  | ⟨1, _⟩ =>
    show win0_0.index t (1 : Fin 6) * 80 + 1 * (cc.val * 16 + (y.val % 4) * 4 + z.val % 4)
      = (win0_1.index t (1 : Fin 5) * 1 + 1 * u'.val) * 80 + (win0_1.index t (2 : Fin 5) * 5 + 1 * cc.val) * 16
        + ((win0_1.index t (3 : Fin 5) * 256 + 1 * y.val) % 4) * 4 + (win0_1.index t (4 : Fin 5) * 256 + 1 * z.val) % 4
    omega
  | ⟨2, _⟩ =>
    show win0_0.index t (2 : Fin 6) * 1 + 1 * (0 : Fin 1).val = (0 : Fin 1).val
    simp only [Fin.val_zero]; omega
  | ⟨3, _⟩ =>
    show win0_0.index t (3 : Fin 6) * 1 + 1 * (0 : Fin 1).val = (0 : Fin 1).val
    simp only [Fin.val_zero]; omega
  | ⟨4, _⟩ =>
    show win0_0.index t (4 : Fin 6) * 64 + 1 * (y.val / 4) = (win0_1.index t (3 : Fin 5) * 256 + 1 * y.val) / 4
    omega
  | ⟨5, _⟩ =>
    show win0_0.index t (5 : Fin 6) * 64 + 1 * (z.val / 4) = (win0_1.index t (4 : Fin 5) * 256 + 1 * z.val) / 4
    omega

end Cert.KernelIdeal.Shuffled

end
-- ==== Proof.KernelArray.lean ====
/-
  The kernel's result array after the run. Point (b, a) of the 32 × 5 grid writes the block o[b, a, :, :, :], and these 160
  blocks tile the result array: the entry [b, a, c, y, z] lies in the block of the point whose batch index is b and whose
  group index is a, and every pair (b, a) is some point's. Each block written back is the shuffle of the argument read
  through that block (`flushed_eq`), so the whole array ends holding the shuffle of the argument array.
-/
import proofs.«127118_j90563680403822_2_alg».proof.Proof.KernelBlock

noncomputable section

namespace Cert.KernelIdeal.Shuffled

open Cert.KernelIdeal Cert.KernelIdeal.Gen Idealize.ShloMosaic Idealize.ShloMosaic.TcCoe Idealize.SL.Sem
open Idealize.ShloMosaic.ValueIdx Cert.Shuffle
open Idealize.ShloMosaic.Pipeline (Dat)

variable {F : FTy → Type} [FloatOps F]
variable (m : (ℓ : Loc nD τ sig) → Buf (Elt F) ℓ) (ρ : Dev nD → PrngReg)

/-- An entry of the result array is in point `t`'s block iff each coordinate is in the block's range on its axis. -/
theorem mem_block (t : Fin cfg0.N) (i : S32x5x5x256x256.Idx) :
    i ∈ ((cfg0.win 1).blk t).view.set
      ↔ ∀ a : Fin 5, win0_1.index t a * S1x1x5x256x256.size a ≤ (i a).val
          ∧ (i a).val < win0_1.index t a * S1x1x5x256x256.size a + S1x1x5x256x256.size a := by
  show i ∈ ((View.whole main_v0).slice (win0_1.rect t)).set ↔ _
  rw [View.set_slice_whole, Rect.mem_set_unit]
  exact Iff.rfl

/-- Every (batch, group) pair is the block index of some grid point. -/
theorem index_onto : ∀ (q0 : Fin 32) (q1 : Fin 5), ∃ t : Fin cfg0.N, win0_1.index t = ![q0.val, q1.val, 0, 0, 0] :=
  (by decide +kernel : ∀ (q0 : Fin 32) (q1 : Fin 5), ∃ t : Fin grid0.N, win0_1.index t = ![q0.val, q1.val, 0, 0, 0])

/-- THE BLOCKS TILE THE ARRAY: every entry is in the block of a point that writes back. -/
theorem covered (i : S32x5x5x256x256.Idx) :
    ∃ t : Fin cfg0.N, (cfg0.win 1).flush t = true ∧ i ∈ ((cfg0.win 1).blk t).view.set := by
  have h0 : (i 0).val < 32 := (i 0).isLt
  have h1 : (i 1).val < 5 := (i 1).isLt
  have h2 : (i 2).val < 5 := (i 2).isLt
  have h3 : (i 3).val < 256 := (i 3).isLt
  have h4 : (i 4).val < 256 := (i 4).isLt
  obtain ⟨t, ht⟩ := index_onto ⟨(i 0).val, h0⟩ ⟨(i 1).val, h1⟩
  have q0 : win0_1.index t (0 : Fin 5) = (i 0).val := congrFun ht 0
  have q1 : win0_1.index t (1 : Fin 5) = (i 1).val := congrFun ht 1
  have q2 : win0_1.index t (2 : Fin 5) = 0 := congrFun ht 2
  have q3 : win0_1.index t (3 : Fin 5) = 0 := congrFun ht 3
  have q4 : win0_1.index t (4 : Fin 5) = 0 := congrFun ht 4
  refine ⟨t, flush0_1 t, ?_⟩
  rw [mem_block]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 5 ≤ (i 2).val ∧ (i 2).val < win0_1.index t (2 : Fin 5) * 5 + 5; omega
  | ⟨3, _⟩ => show win0_1.index t (3 : Fin 5) * 256 ≤ (i 3).val ∧ (i 3).val < win0_1.index t (3 : Fin 5) * 256 + 256; omega
  | ⟨4, _⟩ => show win0_1.index t (4 : Fin 5) * 256 ≤ (i 4).val ∧ (i 4).val < win0_1.index t (4 : Fin 5) * 256 + 256; omega

/-- THE RESULT ARRAY after the run is the shuffle of the argument array. -/
theorem final (c : Dev nD) :
    (dats m 0 c).arrAt 1 cfg0.N = shuffle (α := Elt F .f32) (m ((c : Thread nD τ).loc main_arg0)) :=
  (dats m 0 c).arrAt_eq_of_cover 1 (shuffle (α := Elt F .f32) (V m c main_arg0)) (fun t _ => flushed_eq m c t) covered

/-- Every weakly fair execution of the kernel's program terminates with its result array at the shuffle of its argument
    array, and the argument array unchanged. -/
theorem run_shuffle : θ_run defs (onTc (τ := τ) (main (F := F))) ⟨m, fun _ => 0, ρ⟩ fun r => ∀ c : Dev nD,
      r.2.mem ((c : Thread nD τ).loc main_v0) = shuffle (α := Elt F .f32) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Shuffled

end
-- ==== Proof.ArrayLayout.lean ====
/-
  The whole array, re-laid by the reference: five host operations, none of which changes a value —

      [32,400,1,1,64,64] → [32,400,64,64]       the two unit axes dropped (the slice [:, :, 0, 0])
      [32,400,64,64]     → [32,25,4,4,64,64]    channel ch = 16·q + 4·i + j split into (q, i, j)
      [32,25,4,4,64,64]  → [32,25,64,4,64,4]    transposed: (b, q, i, j, h, w) ↦ (b, q, h, i, w, j)
      [32,25,64,4,64,4]  → [32,25,256,256]      rows and columns merged: y = 4·h + i, z = 4·w + j
      [32,25,256,256]    → [32,5,5,256,256]     output channel q = 5·a + c split into (a, c).

  A reshape keeps the row-major position and a transpose permutes the coordinates; composed, the result at
  [b, a, c, y, z] is the argument at [b, 16·(5·a + c) + 4·(y % 4) + (z % 4), 0, 0, y / 4, z / 4]: the shuffle.
-/
import Idealize.ShloMosaic.Lib.Pipeline.Value
import proofs.«127118_j90563680403822_2_alg».proof.Proof.Shuffle

namespace Cert.Shuffle

open Idealize.ShloMosaic Idealize.ShloMosaic.ValueIdx

variable {α : Type}

/-- Dropping the unit axes of the array: `[32,400,64,64]` at `(b, ch, h, w)` is the argument at `(b, ch, 0, 0, h, w)`. -/
theorem array_drop_units_apply (x : (⟨6, ![32, 400, 1, 1, 64, 64]⟩ : Shape).Idx → α)
    (hc : (⟨6, ![32, 400, 1, 1, 64, 64]⟩ : Shape).ShapeCasts ⟨4, ![32, 400, 64, 64]⟩)
    (b : Fin 32) (ch : Fin 400) (h w : Fin 64) :
    shapeCast ⟨4, ![32, 400, 64, 64]⟩ x hc (ix4 b ch h w) = x (ix6 b ch 0 0 h w) :=
  shapeCast_apply x hc (ix4 b ch h w) (ix6 b ch 0 0 h w) (by
    rw [Shape.rowMajor_val_six, Shape.rowMajor_val_four]
    show ((((b.val * 400 + ch.val) * 1 + (0 : Fin 1).val) * 1 + (0 : Fin 1).val) * 64 + h.val) * 64 + w.val
      = ((b.val * 400 + ch.val) * 64 + h.val) * 64 + w.val
    simp)

/-- Splitting the channel axis: `[32,25,4,4,64,64]` at `(b, q, i, j, h, w)` is `[32,400,64,64]` at
    `(b, 16·q + 4·i + j, h, w)`. -/
theorem array_split_channel_apply (x : (⟨4, ![32, 400, 64, 64]⟩ : Shape).Idx → α)
    (hc : (⟨4, ![32, 400, 64, 64]⟩ : Shape).ShapeCasts ⟨6, ![32, 25, 4, 4, 64, 64]⟩)
    (b : Fin 32) (q : Fin 25) (i j : Fin 4) (h w : Fin 64) :
    shapeCast ⟨6, ![32, 25, 4, 4, 64, 64]⟩ x hc (ix6 b q i j h w)
      = x (ix4 b ⟨q.val * 16 + i.val * 4 + j.val, by have := q.isLt; have := i.isLt; have := j.isLt; omega⟩ h w) :=
  shapeCast_apply x hc (ix6 b q i j h w) _ (by
    rw [Shape.rowMajor_val_four, Shape.rowMajor_val_six]
    show ((b.val * 400 + (q.val * 16 + i.val * 4 + j.val)) * 64 + h.val) * 64 + w.val
      = ((((b.val * 25 + q.val) * 4 + i.val) * 4 + j.val) * 64 + h.val) * 64 + w.val
    omega)

/-- The transpose `(b, q, i, j, h, w) ↦ (b, q, h, i, w, j)`. -/
theorem array_interleave_apply (x : (⟨6, ![32, 25, 4, 4, 64, 64]⟩ : Shape).Idx → α)
    (ht : (⟨6, ![32, 25, 4, 4, 64, 64]⟩ : Shape).Transposes [0, 1, 4, 2, 5, 3] ⟨6, ![32, 25, 64, 4, 64, 4]⟩)
    (b : Fin 32) (q : Fin 25) (h : Fin 64) (i : Fin 4) (w : Fin 64) (j : Fin 4) :
    transpose ⟨6, ![32, 25, 64, 4, 64, 4]⟩ [0, 1, 4, 2, 5, 3] x ht (ix6 b q h i w j) = x (ix6 b q i j h w) :=
  transpose_apply [0, 1, 4, 2, 5, 3] x ht (ix6 b q h i w j) (ix6 b q i j h w) (fun a => match a with
    | ⟨0, _⟩ => rfl
    | ⟨1, _⟩ => rfl
    | ⟨2, _⟩ => rfl
    | ⟨3, _⟩ => rfl
    | ⟨4, _⟩ => rfl
    | ⟨5, _⟩ => rfl)

/-- Merging rows and columns: `[32,25,256,256]` at `(b, q, y, z)` is `[32,25,64,4,64,4]` at
    `(b, q, y / 4, y % 4, z / 4, z % 4)`. -/
theorem array_merge_apply (x : (⟨6, ![32, 25, 64, 4, 64, 4]⟩ : Shape).Idx → α)
    (hc : (⟨6, ![32, 25, 64, 4, 64, 4]⟩ : Shape).ShapeCasts ⟨4, ![32, 25, 256, 256]⟩)
    (b : Fin 32) (q : Fin 25) (y z : Fin 256) :
    shapeCast ⟨4, ![32, 25, 256, 256]⟩ x hc (ix4 b q y z) = x (ix6 b q (pix y) (sub y) (pix z) (sub z)) :=
  shapeCast_apply x hc (ix4 b q y z) (ix6 b q (pix y) (sub y) (pix z) (sub z)) (by
    rw [Shape.rowMajor_val_six, Shape.rowMajor_val_four]
    show ((((b.val * 25 + q.val) * 64 + y.val / 4) * 4 + y.val % 4) * 64 + z.val / 4) * 4 + z.val % 4
      = ((b.val * 25 + q.val) * 256 + y.val) * 256 + z.val
    omega)

/-- Splitting the 25 output channels: `[32,5,5,256,256]` at `(b, a, c, y, z)` is `[32,25,256,256]` at
    `(b, 5·a + c, y, z)`. -/
theorem array_split_out_apply (x : (⟨4, ![32, 25, 256, 256]⟩ : Shape).Idx → α)
    (hc : (⟨4, ![32, 25, 256, 256]⟩ : Shape).ShapeCasts ⟨5, ![32, 5, 5, 256, 256]⟩)
    (b : Fin 32) (a c : Fin 5) (y z : Fin 256) :
    shapeCast ⟨5, ![32, 5, 5, 256, 256]⟩ x hc (ix5 b a c y z)
      = x (ix4 b ⟨a.val * 5 + c.val, by have := a.isLt; have := c.isLt; omega⟩ y z) :=
  shapeCast_apply x hc (ix5 b a c y z) _ (by
    rw [Shape.rowMajor_val_four, Shape.rowMajor_val_five]
    show ((b.val * 25 + (a.val * 5 + c.val)) * 256 + y.val) * 256 + z.val
      = (((b.val * 5 + a.val) * 5 + c.val) * 256 + y.val) * 256 + z.val
    omega)

/-- THE ARRAY, RE-LAID: the five steps composed are the shuffle. -/
theorem array_relaid_eq_shuffle (x : (⟨6, ![32, 400, 1, 1, 64, 64]⟩ : Shape).Idx → α)
    (h0 : (⟨6, ![32, 400, 1, 1, 64, 64]⟩ : Shape).ShapeCasts ⟨4, ![32, 400, 64, 64]⟩)
    (h1 : (⟨4, ![32, 400, 64, 64]⟩ : Shape).ShapeCasts ⟨6, ![32, 25, 4, 4, 64, 64]⟩)
    (h2 : (⟨6, ![32, 25, 4, 4, 64, 64]⟩ : Shape).Transposes [0, 1, 4, 2, 5, 3] ⟨6, ![32, 25, 64, 4, 64, 4]⟩)
    (h3 : (⟨6, ![32, 25, 64, 4, 64, 4]⟩ : Shape).ShapeCasts ⟨4, ![32, 25, 256, 256]⟩)
    (h4 : (⟨4, ![32, 25, 256, 256]⟩ : Shape).ShapeCasts ⟨5, ![32, 5, 5, 256, 256]⟩) :
    shapeCast ⟨5, ![32, 5, 5, 256, 256]⟩
        (shapeCast ⟨4, ![32, 25, 256, 256]⟩
          (transpose ⟨6, ![32, 25, 64, 4, 64, 4]⟩ [0, 1, 4, 2, 5, 3]
            (shapeCast ⟨6, ![32, 25, 4, 4, 64, 64]⟩ (shapeCast ⟨4, ![32, 400, 64, 64]⟩ x h0) h1) h2) h3) h4
      = shuffle x := by
  funext i
  obtain ⟨b, a, c, y, z, rfl⟩ : ∃ (b : Fin 32) (a c : Fin 5) (y z : Fin 256), i = ix5 b a c y z :=
    ⟨i 0, i 1, i 2, i 3, i 4, eq_ix5 i⟩
  rw [array_split_out_apply, array_merge_apply, array_interleave_apply, array_split_channel_apply,
    array_drop_units_apply, shuffle_apply]
  refine congrArg x (funext fun d => Fin.ext ?_)
  match d with
  | ⟨0, _⟩ => rfl
  | ⟨1, _⟩ =>
    show (a.val * 5 + c.val) * 16 + (y.val % 4) * 4 + z.val % 4 = a.val * 80 + c.val * 16 + (y.val % 4) * 4 + z.val % 4
    omega
  | ⟨2, _⟩ => rfl
  | ⟨3, _⟩ => rfl
  | ⟨4, _⟩ => rfl
  | ⟨5, _⟩ => rfl

end Cert.Shuffle
-- ==== Proof.RefShuffle.lean ====
/-
  The reference ends at the shuffle. Its five host operations — two reshapes, a transpose, two reshapes — applied to
  the argument array are, index by index, the one function `Cert.Shuffle.shuffle` of that array (the operations read
  one after the other at an index: `Cert.Shuffle.array_relaid_eq_shuffle`). No arithmetic is done on the values, so this
  holds of any values, finite or not.
-/
import proofs.«127118_j90563680403822_2_alg».proof.Proof.Gen.ReferenceIdeal.Run
import proofs.«127118_j90563680403822_2_alg».proof.Proof.ArrayLayout

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- Every weakly fair execution of the reference terminates with its result array at the shuffle of its argument
    array, and the argument array unchanged. -/
theorem run_shuffle (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = Cert.Shuffle.shuffle (α := Elt F .f32) (m ((c.tc : Thread nD τ).loc main_arg0))
      ∧ r.2.mem ((c.tc : Thread nD τ).loc main_arg0) = m ((c.tc : Thread nD τ).loc main_arg0) :=
  (θ_run defs _ _).mono
    (fun _ h c => ⟨(h c).1.trans (Cert.Shuffle.array_relaid_eq_shuffle (α := Elt F .f32) _ _ _ _ _ _), (h c).2⟩)
    (Cert.ReferenceIdeal.Value.run (F := F) m ρ)

end Cert.ReferenceIdeal.RefValue

end
-- ==== Proof.lean ====
/-
  The kernel is a pixel shuffle (depth to space, factor 4) with the 25 output channels split into 5 × 5, and so is the
  reference: both permute the entries of the argument x[b, ch, 0, 0, h, w] and compute nothing,

      o[b, a, c, y, z] = x[b, 80·a + 16·c + 4·(y % 4) + (z % 4), 0, 0, y / 4, z / 4]        (Proof/Shuffle.lean).

  The kernel does it block by block over a 32 × 5 grid: each point loads 80 channels of one batch element, re-lays them
  by a chain of reshapes around one transpose (Proof/BlockLayout.lean), and stores one block of the result; read
  through the blocks' places in their arrays, each stored block is the shuffle of the argument (Proof/KernelBlock.lean),
  and the 160 blocks tile the result array (Proof/KernelArray.lean). The reference does it to the whole array at once by
  the same kind of chain (Proof/ArrayLayout.lean, Proof/RefShuffle.lean). The two results are therefore the same
  function of arguments that agree, entry by entry, whatever the entries are: the precondition that the inputs are
  finite is never used. The idealization rewrote nothing in the kernel, so there is nothing to preserve.
-/
import proofs.«127118_j90563680403822_2_alg».proof.Defs
import proofs.«127118_j90563680403822_2_alg».proof.Proof.Gen.Kernel
import proofs.«127118_j90563680403822_2_alg».proof.Proof.Gen.Kernel.Frame
import proofs.«127118_j90563680403822_2_alg».proof.Proof.Gen.KernelIdeal
import proofs.«127118_j90563680403822_2_alg».proof.Proof.Gen.KernelIdeal.Frame
import proofs.«127118_j90563680403822_2_alg».proof.Proof.Gen.ReferenceIdeal
import proofs.«127118_j90563680403822_2_alg».proof.Proof.Gen.Pre_finite_inputs
import proofs.«127118_j90563680403822_2_alg».proof.Proof.Gen.ReferenceIdeal.Run
import proofs.«127118_j90563680403822_2_alg».proof.Proof.KernelArray
import proofs.«127118_j90563680403822_2_alg».proof.Proof.RefShuffle

noncomputable section

namespace Cert.Proof

open Idealize.ShloMosaic Idealize.ShloMosaic.TcCoe Idealize.SL.Sem

/-- The kernel's program as printed runs and leaves its argument array unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From arguments that agree, the kernel's result array and the reference's both end at the shuffle of the argument
    array: equal, entry by entry. -/
theorem algebraic : Cert.algebraic_KernelIdeal_ReferenceIdeal := by
  intro m ρ m' ρ' _ hagree
  refine ⟨fun c => Cert.Shuffle.shuffle (α := Elt Ideal .f32)
      (m ((c.tc : Thread Cert.KernelIdeal.nD Cert.KernelIdeal.τ).loc Cert.KernelIdeal.main_arg0)),
    Cert.KernelIdeal.Shuffled.run_shuffle (F := Ideal) m ρ, ?_⟩
  refine (θ_run Cert.ReferenceIdeal.defs _ _).mono (fun _ h c => ⟨(h c).1.trans ?_, (h c).2⟩)
    (Cert.ReferenceIdeal.RefValue.run_shuffle (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
